-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 86
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .bf16⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .bf16⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x40, .bf16⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .bf16⟩
  | .hbm, ⟨75, _⟩ => ⟨S1700000x40, .f32⟩
  | .hbm, ⟨76, _⟩ => ⟨S1700000x1, .f32⟩
  | .hbm, ⟨77, _⟩ => ⟨S1700000x40, .f32⟩
  | .hbm, ⟨78, _⟩ => ⟨S1700000x40, .f32⟩
  | .hbm, ⟨79, _⟩ => ⟨S_, .f32⟩
  | .hbm, ⟨80, _⟩ => ⟨S100000x40, .f32⟩
  | .hbm, ⟨81, _⟩ => ⟨S1700000x1, .i32⟩
  | .hbm, ⟨82, _⟩ => ⟨S100000x40, .f32⟩
  | .hbm, ⟨83, _⟩ => ⟨S1x40, .f32⟩
  | .hbm, ⟨84, _⟩ => ⟨S100000x40, .f32⟩
  | .hbm, ⟨85, _⟩ => ⟨S100000x40, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x40, .f32⟩
  | .local _ .vmem, ⟨9, _⟩ => ⟨S10000x40, .bf16⟩
  | .local _ .vmem, ⟨10, _⟩ => ⟨S10000x40, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  packedbf16_S10000x40_S10000x40_0_0 : (Rect.unit (s := S10000x40) ![0, 0] S10000x40.size inb_S10000x40_S10000x40_0_0).PackedRows (EltTy.packing .bf16)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x40_S10000x40_1_0_0_1_n_n_wf : DotDims.WF S10000x128 S128x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .bf16 = 32 ∨ (Rect.block (s := S100000x40) S10000x40.size (cc1_transform_3 i) (hinb1_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x40, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S1x40, .f32⟩
  | .hbm, ⟨123, _⟩ => ⟨S100000x40, .f32⟩
  | .hbm, ⟨124, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result buffer NAMED.

  @main is seven segments: three stretches of host operations (the edge list split into sources and targets with the
  self loops appended, the degrees, their inverse square roots, the per-edge normalisation), the first pallas_call
  (features × weights), a stretch that gathers, scales and scatter-adds its rows, the second pallas_call (bias,
  rectifier, × weights), and a last stretch that aggregates again and adds the bias. The launch theorem for a program
  of several regions runs the segments one after the other and ends with every unscoped buffer of a core at the
  contents the fold `W7` of the segments gives it. The frame claim keeps, of that, only the six argument arrays; here
  the same run is read at the result buffer as well: it ends at `W7 m ρ c` of the result, whatever that is — the
  later modules say what.
-/
import proofs.«172625_j13048110645409_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting, with the result buffer at the segments' fold
    `W7` read at it and the six argument arrays as launched. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibRowBlock.lean ====
/-
  A run of consecutive rows of a matrix product is the product of that run of rows.
  For `X` of `Mt × K` and `W` of `K × N`, entry `(r, c)` of `X · W` is `∑ k, X (r, k) · W (k, c)`: it reads only
  row `r` of `X`. So a block `Xb` of `Mb` rows of `X` times `W`, read at the block's own row `y 0`, is the whole
  product read at the row of `X` that `y 0` is. On the extended reals a change of float format is the identity, so
  rounding both factors to a narrower format on the way into the product changes nothing.
-/
import proofs.«172625_j13048110645409_2_alg».proof.Proof.LibPlainDot

noncomputable section

open scoped BigOperators

namespace Cert.Proof.RowBlock

open Idealize.ShloMosaic Idealize.ShloMosaic.ValueIdx Cert.Proof.PlainDot

variable {Mb Mt K N : Nat}

/-- The product of a row block (both factors rounded to bf16, accumulated from zero) at `y` is the whole product at
    `i`, when row `y 0` of the block is row `i 0` of `X`, the right factors agree on column `y 1 = i 1`. -/
theorem matmul_block_eq_dot
    (d : DotDims ⟨2, ![Mb, K]⟩ ⟨2, ![K, N]⟩ ⟨2, ![Mb, N]⟩) (hd : d = DotDims.plain Mb K N)
    (D : DotDims ⟨2, ![Mt, K]⟩ ⟨2, ![K, N]⟩ ⟨2, ![Mt, N]⟩) (hD : D = DotDims.plain Mt K N)
    (X : FVec Ideal ⟨2, ![Mt, K]⟩ .f32) (W : FVec Ideal ⟨2, ![K, N]⟩ .f32)
    (Xb : FVec Ideal ⟨2, ![Mb, K]⟩ .f32) (Wb : FVec Ideal ⟨2, ![K, N]⟩ .f32)
    (hb : FTy.bf16.bits < FTy.f32.bits)
    (y : (⟨2, ![Mb, N]⟩ : Shape).Idx) (i : (⟨2, ![Mt, N]⟩ : Shape).Idx)
    (hX : ∀ k : Fin K, Xb (ix2 (y 0) k) = X (ix2 (i 0) k))
    (hW : ∀ k : Fin K, Wb (ix2 k (y 1)) = W (ix2 k (i 1))) :
    FloatOps.matmul d none (truncf .bf16 Xb hb) (truncf .bf16 Wb hb) (constant ⟨2, ![Mb, N]⟩ .f32 0x00000000#32) y
      = FloatOps.dotGeneral D none .single X W i := by
  subst hd hD
  rw [matmul_plain_zero, dotGeneral_plain]
  refine Finset.sum_congr rfl fun k _ => ?_
  rw [truncf_apply, truncf_apply, hX k, hW k]

end Cert.Proof.RowBlock

end
-- ==== Proof.Region0.lean ====
/-
  The first pallas_call's output array after its pipeline has run, as ONE function of the two arrays it reads.

  The grid has 10 points. Point `t` is handed rows `10000·t … 10000·t + 9999` of the node features `X`
  (100000 × 256) and the whole weight matrix `W` (256 × 128), multiplies them and writes the product back as rows
  `10000·t … 10000·t + 9999` of the output. Entry `(r, c)` of a matrix product reads only row `r` of the left
  factor, so the block of rows that point `t` writes is that block of rows of the whole product `X · W`; the ten
  blocks tile the output's rows, so the array ends as `X · W`, entry by entry
  `∑ k, X (r, k) · W (k, c)` on the extended reals (where rounding a factor to a narrower float format is the
  identity).
-/
import proofs.«172625_j13048110645409_2_alg».proof.Proof.Gen.KernelIdeal.Frame
import proofs.«172625_j13048110645409_2_alg».proof.Proof.LibRowBlock
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product `X · W` of the 100000 × 256 features and the 256 × 128 weights, as the host's `dot_general`
    states it. -/
def prod (X : FVec Ideal S100000x256 .f32) (W : FVec Ideal S256x128 .f32) : S100000x128.Idx → EReal :=
  fun i => FloatOps.dotGeneral (DotDims.plain 100000 256 128) none .single X W i

/-- The printed index maps over the ten grid points: the features' block and the output's block are both block `t`
    of their rows, and the weights' block is always the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value on a block of 10000 rows, at `y`, is the whole product at `i` when row `y 0` of the
    block is row `i 0` of `X` and the weights' block is `W`. -/
theorem pay_apply (x0 : Vec Ideal S10000x256 .f32) (x1 : Vec Ideal S256x128 .f32)
    (X : FVec Ideal S100000x256 .f32) (W : FVec Ideal S256x128 .f32) (y : S10000x128.Idx) (i : S100000x128.Idx)
    (hX : ∀ k : Fin 256, x0 (ix2 (y 0) k) = X (ix2 (i 0) k))
    (hW : ∀ k : Fin 256, x1 (ix2 k (y 1)) = W (ix2 k (i 1))) :
    k0_pay1 x0 x1 y = prod X W i := by
  unfold k0_pay1 prod
  exact Cert.Proof.RowBlock.matmul_block_eq_dot _ rfl _ rfl X W x0 x1 bitsLt_bf16_f32 y i hX hW

/-- What point `t` writes back is block `t` of the whole product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  obtain ⟨e0, e1, e2, e3, e4, e5⟩ := idx_facts t
  funext y
  show k0_pay1 (iblk0 V c 0 t) (iblk0 V c 1 t) y = prod (V c main_arg0) (V c main_arg2) (((cfg0.win 2).blk t).view.emb y)
  refine pay_apply _ _ (V c main_arg0) (V c main_arg2) y _ (fun k => ?_) (fun k => ?_)
  · -- row `y 0` of the features' block at point `t` is row `10000·t + y 0` of the features
    unfold iblk0
    rw [View.read_apply]
    show V c main_arg0 _ = V c main_arg0 _
    congr 1
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 256 + 1 * k.val = k.val; omega
  · -- the weights' block is the whole matrix
    unfold iblk0
    rw [View.read_apply]
    show V c main_arg2 _ = V c main_arg2 _
    congr 1
    funext a; apply Fin.ext
    match a with
    | ⟨0, _⟩ => show win0_1.index t (0 : Fin 2) * 256 + 1 * k.val = k.val; omega
    | ⟨1, _⟩ => show win0_1.index t (1 : Fin 2) * 128 + 1 * (y 1).val = win0_2.index t (1 : Fin 2) * 128 + 1 * (y 1).val; omega

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every index of the output is in the block of the point its row falls in: point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have ht : (i 0).val / 10000 < cfg0.N := by show _ < grid0.N; rw [hN]; omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e5]; omega

/-- After the pipeline the output array is the whole product of the arrays the region found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Region0

end
-- ==== Proof.Region1.lean ====
/-
  The second pallas_call's output array after its pipeline has run, as ONE function of the three arrays it reads.

  The grid has 10 points. Point `t` is handed rows `10000·t … 10000·t + 9999` of the aggregated features `A`
  (100000 × 128), the bias as a 1 × 128 row `B` and the whole weight matrix `W` (128 × 40). It adds the bias row to
  every row of its block, takes the maximum with zero, multiplies by `W` and writes the product back as the same rows of
  the output. The activation `max (A (r, k) + B (0, k)) 0` at row `r` reads only row `r` of `A`, and entry `(r, c)`
  of a matrix product reads only row `r` of its left factor: so the block of rows point `t` writes is that block of rows
  of `act A B · W`, and the ten blocks tile the rows. On the extended reals rounding a factor to a narrower float
  format is the identity.
-/
import proofs.«172625_j13048110645409_2_alg».proof.Proof.Gen.KernelIdeal.Frame
import proofs.«172625_j13048110645409_2_alg».proof.Proof.LibRowBlock
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden layer's activations: the bias row added to every row of the aggregated features, then the maximum
    with zero. -/
def act (A : FVec Ideal S100000x128 .f32) (B : FVec Ideal S1x128 .f32) : FVec Ideal S100000x128 .f32 :=
  fun j => max (A j + B (ix2 (0 : Fin 1) (j 1))) 0

/-- The activations times the 128 × 40 weights, as the host's `dot_general` states a product. -/
def prod (A : FVec Ideal S100000x128 .f32) (B : FVec Ideal S1x128 .f32) (W : FVec Ideal S128x40 .f32) :
    S100000x40.Idx → EReal :=
  fun i => FloatOps.dotGeneral (DotDims.plain 100000 128 40) none .single (act A B) W i

/-- The printed index maps over the ten grid points: the features' block and the output's block are both block `t`
    of their rows; the bias row and the weights are always whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value on a block of 10000 rows, at `y`, is the whole product at `i` when row `y 0` of the
    block is row `i 0` of `A`, and the bias row's block and the weights' block are `B` and `W`. -/
theorem pay_apply (xb : Vec Ideal S1x128 .f32) (xa : Vec Ideal S10000x128 .f32) (xw : Vec Ideal S128x40 .f32)
    (A : FVec Ideal S100000x128 .f32) (B : FVec Ideal S1x128 .f32) (W : FVec Ideal S128x40 .f32)
    (y : S10000x40.Idx) (i : S100000x40.Idx)
    (hA : ∀ k : Fin 128, xa (ix2 (y 0) k) = A (ix2 (i 0) k))
    (hB : ∀ k : Fin 128, xb (ix2 (0 : Fin 1) k) = B (ix2 (0 : Fin 1) k))
    (hW : ∀ k : Fin 128, xw (ix2 k (y 1)) = W (ix2 k (i 1))) :
    k1_pay1 xb xa xw y = prod A B W i := by
  unfold k1_pay1 prod
  refine Cert.Proof.RowBlock.matmul_block_eq_dot _ rfl _ rfl (act A B) W _ xw bitsLt_bf16_f32 y i (fun k => ?_) hW
  rw [shapeCast_self, shapeCast_self, shapeCast_self]
  unfold act
  refine congrArg₂ max (congrArg₂ (· + ·) (hA k) ?_) Ideal.ofBits_zero_f32
  exact (broadcastTo_1b_ab_apply xb broadcasts_S1x128_S10000x128 (y 0) k).trans (hB k)

/-- What point `t` writes back is block `t` of the whole product of the arrays the region finds. -/
theorem flushed_eq (c : Dev nD) (t : Fin cfg1.N) :
    (dat1 V c).flushed 3 t
      = ((cfg1.win 3).blk t).view.read (Elt Ideal) (prod (V c main_v44) (V c main_v45) (V c main_arg4)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x40) hz]
  obtain ⟨e0, e1, e2, e3, e4, e5, e6, e7⟩ := idx_facts t
  funext y
  show k1_pay1 (iblk1 V c 1 t) (iblk1 V c 0 t) (iblk1 V c 2 t) y
    = prod (V c main_v44) (V c main_v45) (V c main_arg4) (((cfg1.win 3).blk t).view.emb y)
  refine pay_apply _ _ _ (V c main_v44) (V c main_v45) (V c main_arg4) y _ (fun k => ?_) (fun k => ?_) (fun k => ?_)
  · -- row `y 0` of the features' block at point `t` is row `10000·t + y 0` of the features
    unfold iblk1
    rw [View.read_apply]
    show V c main_v44 _ = V c main_v44 _
    congr 1
    funext a; apply Fin.ext
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 128 + 1 * k.val = k.val; omega
  · -- the bias row's block is the whole row
    unfold iblk1
    rw [View.read_apply]
    show V c main_v45 _ = V c main_v45 _
    congr 1
    funext a; apply Fin.ext
    match a with
    | ⟨0, _⟩ => show win1_1.index t (0 : Fin 2) * 1 + 1 * 0 = 0; omega
    | ⟨1, _⟩ => show win1_1.index t (1 : Fin 2) * 128 + 1 * k.val = k.val; omega
  · -- the weights' block is the whole matrix
    unfold iblk1
    rw [View.read_apply]
    show V c main_arg4 _ = V c main_arg4 _
    congr 1
    funext a; apply Fin.ext
    match a with
    | ⟨0, _⟩ => show win1_2.index t (0 : Fin 2) * 128 + 1 * k.val = k.val; omega
    | ⟨1, _⟩ => show win1_2.index t (1 : Fin 2) * 40 + 1 * (y 1).val = win1_3.index t (1 : Fin 2) * 40 + 1 * (y 1).val; omega

/-- An index of the output is in point `t`'s block iff each coordinate is in the block's range on its axis. -/
theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v46).slice (win1_3.rect t)).set ↔ _
  rw [View.set_slice_whole, Rect.mem_set_unit]
  exact Iff.rfl

/-- Every index of the output is in the block of the point its row falls in: point `r / 10000`. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : grid1.N = 10 := N_1
  have ht : (i 0).val / 10000 < cfg1.N := by show _ < grid1.N; rw [hN]; omega
  obtain ⟨e0, e1, e2, e3, e4, e5, e6, e7⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 40 ≤ (i 1).val ∧ (i 1).val < win1_3.index ⟨(i 0).val / 10000, ht⟩ (1 : Fin 2) * 40 + 40
    rw [e7]; omega

/-- After the pipeline the output array is the whole product of the arrays the region found. -/
theorem final (c : Dev nD) : (dat1 V c).arrAt 3 cfg1.N = prod (V c main_v44) (V c main_v45) (V c main_arg4) :=
  (dat1 V c).arrAt_eq_of_cover 3 (prod (V c main_v44) (V c main_v45) (V c main_arg4)) (fun t _ => flushed_eq V c t) cover

end Cert.KernelIdeal.Region1

end
-- ==== Proof.KernelFold.lean ====
/-
  The idealized kernel's result buffer, read back through @main's seven segments to the argument arrays.

  Written as functions of whole arrays, on the extended reals:
  * `srcs E`, `dsts E`: rows 0 and 1 of the 2 × 1600000 edge list, each with the 100000 self loops `0 … 99999` appended;
  * `degs d`: the number of edges (self loops included) into each node — ones scatter-added at the targets —,
    `dinv d`: its inverse square root where the degree is positive, zero elsewhere, and `nrm s d`: per edge, the product
    of `dinv` at its source and at its target;
  * `aggregate128 H s d n` (and `aggregate40`): per edge, row `s e` of `H` times `n e`, scatter-added into row `d e` of
    a zero array;
  * `Region0.prod X W`: the first pallas_call's array, `X · W`; `Region1.prod A B W`: the second's,
    `max (A + B) 0 · W`;
  * `addBias A b`: `b` added to every row of `A`.
  The first pallas_call writes a bf16 array that the host gathers from and then widens to f32; on the extended reals
  the widening is the identity, so the gathered rows are the rows of `X · W` themselves.

  Each host stretch is read at the buffers the next segment needs (an operation's result is its function of its
  operands' contents; a buffer a stretch does not write keeps its contents), each pallas_call's output array is the
  region module's whole-array function of its entry contents, and every other buffer passes a region unchanged.
-/
import proofs.«172625_j13048110645409_2_alg».proof.Proof.Gen.KernelIdeal.Frame
import proofs.«172625_j13048110645409_2_alg».proof.Proof.Region0
import proofs.«172625_j13048110645409_2_alg».proof.Proof.Region1
import Idealize.ShloMosaic.Lib.StableHlo.Run
import Idealize.ShloMosaic.PureOps.Ideal
import Idealize.ShloMosaic.Lib.ValueIdx

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- A 32-bit integer array of shape `s`. -/
abbrev IArr (s : Shape) : Type := IVec s 32
/-- An f32 array of shape `s` on the extended reals. -/
abbrev FArr (s : Shape) : Type := FVec Ideal s .f32

/-! ## The pure functions -/

/-- Row 0 of the edge list (the sources) followed by the self loops `0 … 99999`. -/
def srcs (E : IArr S2x1600000) : IArr S1700000 :=
  concatenate S1700000 0 [⟨S1600000, (shapeCast _ (extractStridedSlice S1x1600000 ![0, 0] E slices_S2x1600000_S1x1600000_0_0) shapeCasts_S1x1600000_S1600000)⟩, ⟨S100000, (iotaInDim S100000 32 0)⟩] concatenates_S1600000_S100000_S1700000_d0

/-- Row 1 of the edge list (the targets) followed by the self loops. -/
def dsts (E : IArr S2x1600000) : IArr S1700000 :=
  concatenate S1700000 0 [⟨S1600000, (shapeCast _ (extractStridedSlice S1x1600000 ![1, 0] E slices_S2x1600000_S1x1600000_1_0) shapeCasts_S1x1600000_S1600000)⟩, ⟨S100000, (iotaInDim S100000 32 0)⟩] concatenates_S1600000_S100000_S1700000_d0

/-- A list of node numbers as a column of start indices. -/
def col (v : IArr S1700000) : IArr S1700000x1 := broadcastInDim S1700000x1 ![0] bcast_S1700000_S1700000x1_0 v

/-- The same after jnp's index normalisation: a negative number has 100000 added. -/
def wrapCol (v : IArr S1700000) : IArr S1700000x1 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degrees: a one per edge, scatter-added at the edge's target into zeros. -/
def degs (d : IArr S1700000) : FArr S100000 :=
  Host.scatterAdd scatter_S100000_S1700000x1_S1700000_n_0_0_1
    (broadcastInDim S100000 ![] bcast_S_S100000 (constant (F := Ideal) S_ .f32 0x00000000#32)) (col d)
    (broadcastInDim S1700000 ![] bcast_S_S1700000 (constant (F := Ideal) S_ .f32 0x3F800000#32))

/-- The inverse square root of the degree where it is positive, zero elsewhere. -/
def dinv (d : IArr S1700000) : FArr S100000 :=
  select (cmpf (F := Ideal) .ogt (degs d) (broadcastInDim S100000 ![] bcast_S_S100000 (constant (F := Ideal) S_ .f32 0x00000000#32)))
    (Host.rsqrt (degs d)) (broadcastInDim S100000 ![] bcast_S_S100000 (id (constant (F := Ideal) S_ .f32 0x00000000#32)))

/-- Per edge: `dinv` at the source times `dinv` at the target. -/
def nrm (s d : IArr S1700000) : FArr S1700000 :=
  mulf (Host.gather gather_S100000_S1700000x1_S1700000_n_0_n_n_0_1_1 (dinv d) (wrapCol s))
    (Host.gather gather_S100000_S1700000x1_S1700000_n_0_n_n_0_1_1 (dinv d) (wrapCol d))

/-- Per edge, row `s e` of `H` scaled by `n e`, scatter-added into row `d e` of zeros (128 columns). -/
def aggregate128 (H : FArr S100000x128) (s d : IArr S1700000) (n : FArr S1700000) : FArr S100000x128 :=
  Host.scatterAdd scatter_S100000x128_S1700000x1_S1700000x128_1_0_0_1
    (broadcastInDim S100000x128 ![] bcast_S_S100000x128 (constant (F := Ideal) S_ .f32 0x00000000#32)) (col d)
    (mulf (Host.gather gather_S100000x128_S1700000x1_S1700000x128_1_0_n_n_0_1_1128 H (wrapCol s))
      (broadcastInDim S1700000x128 ![0, 1] bcast_S1700000x1_S1700000x128_0_1 (broadcastInDim S1700000x1 ![0] bcast_S1700000_S1700000x1_0 n)))

/-- The same with 40 columns. -/
def aggregate40 (H : FArr S100000x40) (s d : IArr S1700000) (n : FArr S1700000) : FArr S100000x40 :=
  Host.scatterAdd scatter_S100000x40_S1700000x1_S1700000x40_1_0_0_1
    (broadcastInDim S100000x40 ![] bcast_S_S100000x40 (constant (F := Ideal) S_ .f32 0x00000000#32)) (col d)
    (mulf (Host.gather gather_S100000x40_S1700000x1_S1700000x40_1_0_n_n_0_1_140 H (wrapCol s))
      (broadcastInDim S1700000x40 ![0, 1] bcast_S1700000x1_S1700000x40_0_1 (broadcastInDim S1700000x1 ![0] bcast_S1700000_S1700000x1_0 n)))

/-- The hidden layer's bias as a 1 × 128 row. -/
def biasRow (b : FArr S128) : FArr S1x128 := shapeCast _ b shapeCasts_S128_S1x128

/-- The output layer's bias added to every row. -/
def addBias (A : FArr S100000x40) (b : FArr S40) : FArr S100000x40 :=
  addf A (broadcastInDim S100000x40 ![0, 1] bcast_S1x40_S100000x40_0_1 (broadcastInDim S1x40 ![1] bcast_S40_S1x40_1 b))

/-- The kernel's result as one function of the six argument arrays. -/
def result (X : FArr S100000x256) (E : IArr S2x1600000) (W1 : FArr S256x128) (b1 : FArr S128) (W2 : FArr S128x40)
    (b2 : FArr S40) : FArr S100000x40 :=
  addBias (aggregate40
    (Region1.prod (aggregate128 (Region0.prod X W1) (srcs E) (dsts E) (nrm (srcs E) (dsts E))) (biasRow b1) W2)
    (srcs E) (dsts E) (nrm (srcs E) (dsts E))) b2

set_option maxHeartbeats 4000000

/-! ## Each stretch of host operations, read from ANY contents `V` of the buffers before it

An operation's result is its function of its operands' contents; a buffer the stretch does not write keeps its
contents. -/

/-- Reads a buffer after a stretch of host operations. -/
local macro "read_stretch" : tactic => `(tactic| (after_results_simp <;> try rfl))

/-! ### The first stretch: the edge list's two rows with the self loops, the degrees compared with zero, their
    inverse square roots -/

theorem a_v5 (V : Valuation τ sig (Elt Ideal)) : StableHlo.after hostOps0 V (Proc.devRef .tc main_v5) = srcs (V (Proc.devRef .tc main_arg1)) := by read_stretch
theorem a_v6 (V : Valuation τ sig (Elt Ideal)) : StableHlo.after hostOps0 V (Proc.devRef .tc main_v6) = dsts (V (Proc.devRef .tc main_arg1)) := by read_stretch
theorem a_v12 (V : Valuation τ sig (Elt Ideal)) : StableHlo.after hostOps0 V (Proc.devRef .tc main_v12)
    = cmpf (F := Ideal) .ogt (degs (dsts (V (Proc.devRef .tc main_arg1)))) (broadcastInDim S100000 ![] bcast_S_S100000 (constant (F := Ideal) S_ .f32 0x00000000#32)) := by read_stretch
theorem a_v13 (V : Valuation τ sig (Elt Ideal)) : StableHlo.after hostOps0 V (Proc.devRef .tc main_v13) = Host.rsqrt (degs (dsts (V (Proc.devRef .tc main_arg1)))) := by read_stretch
theorem a_cst_2 (V : Valuation τ sig (Elt Ideal)) : StableHlo.after hostOps0 V (Proc.devRef .tc main_cst_2) = constant (F := Ideal) S_ .f32 0x00000000#32 := by read_stretch
theorem a_arg0 (V : Valuation τ sig (Elt Ideal)) : StableHlo.after hostOps0 V (Proc.devRef .tc main_arg0) = V (Proc.devRef .tc main_arg0) := by read_stretch
theorem a_arg2 (V : Valuation τ sig (Elt Ideal)) : StableHlo.after hostOps0 V (Proc.devRef .tc main_arg2) = V (Proc.devRef .tc main_arg2) := by read_stretch
theorem a_arg3 (V : Valuation τ sig (Elt Ideal)) : StableHlo.after hostOps0 V (Proc.devRef .tc main_arg3) = V (Proc.devRef .tc main_arg3) := by read_stretch
theorem a_arg4 (V : Valuation τ sig (Elt Ideal)) : StableHlo.after hostOps0 V (Proc.devRef .tc main_arg4) = V (Proc.devRef .tc main_arg4) := by read_stretch
theorem a_arg5 (V : Valuation τ sig (Elt Ideal)) : StableHlo.after hostOps0 V (Proc.devRef .tc main_arg5) = V (Proc.devRef .tc main_arg5) := by read_stretch

/-! ### The second stretch: zero where the degree is not positive -/

theorem b_v14 (V : Valuation τ sig (Elt Ideal)) : StableHlo.after hostOps0_1 V (Proc.devRef .tc main_v14)
    = select (V (Proc.devRef .tc main_v12)) (V (Proc.devRef .tc main_v13)) (broadcastInDim S100000 ![] bcast_S_S100000 (id (V (Proc.devRef .tc main_cst_2)))) := by read_stretch
theorem b_v5 (V : Valuation τ sig (Elt Ideal)) : StableHlo.after hostOps0_1 V (Proc.devRef .tc main_v5) = V (Proc.devRef .tc main_v5) := by read_stretch
theorem b_v6 (V : Valuation τ sig (Elt Ideal)) : StableHlo.after hostOps0_1 V (Proc.devRef .tc main_v6) = V (Proc.devRef .tc main_v6) := by read_stretch
theorem b_arg0 (V : Valuation τ sig (Elt Ideal)) : StableHlo.after hostOps0_1 V (Proc.devRef .tc main_arg0) = V (Proc.devRef .tc main_arg0) := by read_stretch
theorem b_arg2 (V : Valuation τ sig (Elt Ideal)) : StableHlo.after hostOps0_1 V (Proc.devRef .tc main_arg2) = V (Proc.devRef .tc main_arg2) := by read_stretch
theorem b_arg3 (V : Valuation τ sig (Elt Ideal)) : StableHlo.after hostOps0_1 V (Proc.devRef .tc main_arg3) = V (Proc.devRef .tc main_arg3) := by read_stretch
theorem b_arg4 (V : Valuation τ sig (Elt Ideal)) : StableHlo.after hostOps0_1 V (Proc.devRef .tc main_arg4) = V (Proc.devRef .tc main_arg4) := by read_stretch
theorem b_arg5 (V : Valuation τ sig (Elt Ideal)) : StableHlo.after hostOps0_1 V (Proc.devRef .tc main_arg5) = V (Proc.devRef .tc main_arg5) := by read_stretch

/-! ### The third stretch: the per-edge normalisation -/

theorem c_v29 (V : Valuation τ sig (Elt Ideal)) : StableHlo.after hostOps0_2 V (Proc.devRef .tc main_v29)
    = (mulf (Host.gather gather_S100000_S1700000x1_S1700000_n_0_n_n_0_1_1 (V (Proc.devRef .tc main_v14) : FVec Ideal S100000 .f32) (wrapCol (V (Proc.devRef .tc main_v5))))
        (Host.gather gather_S100000_S1700000x1_S1700000_n_0_n_n_0_1_1 (V (Proc.devRef .tc main_v14) : FVec Ideal S100000 .f32) (wrapCol (V (Proc.devRef .tc main_v6)))) : FVec Ideal S1700000 .f32) := by read_stretch
theorem c_v5 (V : Valuation τ sig (Elt Ideal)) : StableHlo.after hostOps0_2 V (Proc.devRef .tc main_v5) = V (Proc.devRef .tc main_v5) := by read_stretch
theorem c_v6 (V : Valuation τ sig (Elt Ideal)) : StableHlo.after hostOps0_2 V (Proc.devRef .tc main_v6) = V (Proc.devRef .tc main_v6) := by read_stretch
theorem c_arg0 (V : Valuation τ sig (Elt Ideal)) : StableHlo.after hostOps0_2 V (Proc.devRef .tc main_arg0) = V (Proc.devRef .tc main_arg0) := by read_stretch
theorem c_arg2 (V : Valuation τ sig (Elt Ideal)) : StableHlo.after hostOps0_2 V (Proc.devRef .tc main_arg2) = V (Proc.devRef .tc main_arg2) := by read_stretch
theorem c_arg3 (V : Valuation τ sig (Elt Ideal)) : StableHlo.after hostOps0_2 V (Proc.devRef .tc main_arg3) = V (Proc.devRef .tc main_arg3) := by read_stretch
theorem c_arg4 (V : Valuation τ sig (Elt Ideal)) : StableHlo.after hostOps0_2 V (Proc.devRef .tc main_arg4) = V (Proc.devRef .tc main_arg4) := by read_stretch
theorem c_arg5 (V : Valuation τ sig (Elt Ideal)) : StableHlo.after hostOps0_2 V (Proc.devRef .tc main_arg5) = V (Proc.devRef .tc main_arg5) := by read_stretch

/-! ### The stretch between the two pallas_calls: the first aggregation, and the bias as a row -/

theorem d_v44 (V : Valuation τ sig (Elt Ideal)) : StableHlo.after hostOps1 V (Proc.devRef .tc main_v44)
    = aggregate128 (V (Proc.devRef .tc main_v30)) (V (Proc.devRef .tc main_v5)) (V (Proc.devRef .tc main_v6)) (V (Proc.devRef .tc main_v29)) := by read_stretch
theorem d_v45 (V : Valuation τ sig (Elt Ideal)) : StableHlo.after hostOps1 V (Proc.devRef .tc main_v45) = biasRow (V (Proc.devRef .tc main_arg3)) := by read_stretch
theorem d_v5 (V : Valuation τ sig (Elt Ideal)) : StableHlo.after hostOps1 V (Proc.devRef .tc main_v5) = V (Proc.devRef .tc main_v5) := by read_stretch
theorem d_v6 (V : Valuation τ sig (Elt Ideal)) : StableHlo.after hostOps1 V (Proc.devRef .tc main_v6) = V (Proc.devRef .tc main_v6) := by read_stretch
theorem d_v29 (V : Valuation τ sig (Elt Ideal)) : StableHlo.after hostOps1 V (Proc.devRef .tc main_v29) = V (Proc.devRef .tc main_v29) := by read_stretch
theorem d_arg4 (V : Valuation τ sig (Elt Ideal)) : StableHlo.after hostOps1 V (Proc.devRef .tc main_arg4) = V (Proc.devRef .tc main_arg4) := by read_stretch
theorem d_arg5 (V : Valuation τ sig (Elt Ideal)) : StableHlo.after hostOps1 V (Proc.devRef .tc main_arg5) = V (Proc.devRef .tc main_arg5) := by read_stretch

/-! ### The last stretch: the second aggregation and the bias -/

theorem e_v63 (V : Valuation τ sig (Elt Ideal)) : StableHlo.after hostOps2 V (Proc.devRef .tc main_v63)
    = addBias (aggregate40 (V (Proc.devRef .tc main_v46)) (V (Proc.devRef .tc main_v5)) (V (Proc.devRef .tc main_v6)) (V (Proc.devRef .tc main_v29))) (V (Proc.devRef .tc main_arg5)) := by read_stretch

/-! ## The fold `W7` of the seven segments at the result buffer -/

variable (m : (ℓ : Loc nD τ sig) → Buf (Elt Ideal) ℓ) (ρ : Dev nD → PrngReg)

/-! ### Up to the first pallas_call's entry (`W1`, `W2`, `W3`: the three stretches from the launch memory) -/

theorem W1_v12 (c : Dev nD) : W1 m ρ c (Proc.devRef .tc main_v12)
    = cmpf (F := Ideal) .ogt (degs (dsts (m ((c.tc : Thread nD τ).loc main_arg1)))) (broadcastInDim S100000 ![] bcast_S_S100000 (constant (F := Ideal) S_ .f32 0x00000000#32)) := a_v12 _
theorem W1_v13 (c : Dev nD) : W1 m ρ c (Proc.devRef .tc main_v13) = Host.rsqrt (degs (dsts (m ((c.tc : Thread nD τ).loc main_arg1)))) := a_v13 _
theorem W1_cst_2 (c : Dev nD) : W1 m ρ c (Proc.devRef .tc main_cst_2) = constant (F := Ideal) S_ .f32 0x00000000#32 := a_cst_2 _
theorem W2_v5 (c : Dev nD) : W2 m ρ c (Proc.devRef .tc main_v5) = srcs (m ((c.tc : Thread nD τ).loc main_arg1)) := (b_v5 _).trans (a_v5 _)
theorem W2_v6 (c : Dev nD) : W2 m ρ c (Proc.devRef .tc main_v6) = dsts (m ((c.tc : Thread nD τ).loc main_arg1)) := (b_v6 _).trans (a_v6 _)
theorem W2_v14 (c : Dev nD) : W2 m ρ c (Proc.devRef .tc main_v14) = dinv (dsts (m ((c.tc : Thread nD τ).loc main_arg1))) := by
  refine (b_v14 _).trans ?_
  rw [W1_v12, W1_v13, W1_cst_2]
  rfl
theorem W3_v5 (c : Dev nD) : W3 m ρ c (Proc.devRef .tc main_v5) = srcs (m ((c.tc : Thread nD τ).loc main_arg1)) := (c_v5 _).trans (W2_v5 m ρ c)
theorem W3_v6 (c : Dev nD) : W3 m ρ c (Proc.devRef .tc main_v6) = dsts (m ((c.tc : Thread nD τ).loc main_arg1)) := (c_v6 _).trans (W2_v6 m ρ c)
theorem W3_v29 (c : Dev nD) : W3 m ρ c (Proc.devRef .tc main_v29) = (nrm (srcs (m ((c.tc : Thread nD τ).loc main_arg1))) (dsts (m ((c.tc : Thread nD τ).loc main_arg1)))) := by
  refine (c_v29 _).trans ?_
  rw [W2_v14, W2_v5, W2_v6]
  rfl
theorem W3_arg0 (c : Dev nD) : W3 m ρ c (Proc.devRef .tc main_arg0) = (m ((c.tc : Thread nD τ).loc main_arg0)) :=
  (c_arg0 _).trans ((b_arg0 _).trans (a_arg0 _))
theorem W3_arg2 (c : Dev nD) : W3 m ρ c (Proc.devRef .tc main_arg2) = (m ((c.tc : Thread nD τ).loc main_arg2)) :=
  (c_arg2 _).trans ((b_arg2 _).trans (a_arg2 _))
theorem W3_arg3 (c : Dev nD) : W3 m ρ c (Proc.devRef .tc main_arg3) = (m ((c.tc : Thread nD τ).loc main_arg3)) :=
  (c_arg3 _).trans ((b_arg3 _).trans (a_arg3 _))
theorem W3_arg4 (c : Dev nD) : W3 m ρ c (Proc.devRef .tc main_arg4) = (m ((c.tc : Thread nD τ).loc main_arg4)) :=
  (c_arg4 _).trans ((b_arg4 _).trans (a_arg4 _))
theorem W3_arg5 (c : Dev nD) : W3 m ρ c (Proc.devRef .tc main_arg5) = (m ((c.tc : Thread nD τ).loc main_arg5)) :=
  (c_arg5 _).trans ((b_arg5 _).trans (a_arg5 _))

/-! ### The first pallas_call (`W4`): its output array is the product; every other buffer passes unchanged -/

theorem W4_v30 (c : Dev nD) : W4 m ρ c (Proc.devRef .tc main_v30) = Region0.prod (m ((c.tc : Thread nD τ).loc main_arg0)) (m ((c.tc : Thread nD τ).loc main_arg2)) := by
  refine (W4_arr m ρ c 2).trans ?_
  rw [Region0.final (V3 m ρ) c]
  show Region0.prod (W3 m ρ c (Proc.devRef .tc main_arg0)) (W3 m ρ c (Proc.devRef .tc main_arg2)) = _
  rw [W3_arg0, W3_arg2]
theorem W4_v5 (c : Dev nD) : W4 m ρ c (Proc.devRef .tc main_v5) = srcs (m ((c.tc : Thread nD τ).loc main_arg1)) := (W4_of_ne m ρ c main_v5 (by decide)).trans (W3_v5 m ρ c)
theorem W4_v6 (c : Dev nD) : W4 m ρ c (Proc.devRef .tc main_v6) = dsts (m ((c.tc : Thread nD τ).loc main_arg1)) := (W4_of_ne m ρ c main_v6 (by decide)).trans (W3_v6 m ρ c)
theorem W4_v29 (c : Dev nD) : W4 m ρ c (Proc.devRef .tc main_v29) = (nrm (srcs (m ((c.tc : Thread nD τ).loc main_arg1))) (dsts (m ((c.tc : Thread nD τ).loc main_arg1)))) := (W4_of_ne m ρ c main_v29 (by decide)).trans (W3_v29 m ρ c)
theorem W4_arg3 (c : Dev nD) : W4 m ρ c (Proc.devRef .tc main_arg3) = (m ((c.tc : Thread nD τ).loc main_arg3)) := (W4_of_ne m ρ c main_arg3 (by decide)).trans (W3_arg3 m ρ c)
theorem W4_arg4 (c : Dev nD) : W4 m ρ c (Proc.devRef .tc main_arg4) = (m ((c.tc : Thread nD τ).loc main_arg4)) := (W4_of_ne m ρ c main_arg4 (by decide)).trans (W3_arg4 m ρ c)
theorem W4_arg5 (c : Dev nD) : W4 m ρ c (Proc.devRef .tc main_arg5) = (m ((c.tc : Thread nD τ).loc main_arg5)) := (W4_of_ne m ρ c main_arg5 (by decide)).trans (W3_arg5 m ρ c)

/-! ### The stretch between the two pallas_calls (`W5`) -/

theorem W5_v44 (c : Dev nD) : W5 m ρ c (Proc.devRef .tc main_v44)
    = aggregate128 (Region0.prod (m ((c.tc : Thread nD τ).loc main_arg0)) (m ((c.tc : Thread nD τ).loc main_arg2))) (srcs (m ((c.tc : Thread nD τ).loc main_arg1))) (dsts (m ((c.tc : Thread nD τ).loc main_arg1))) (nrm (srcs (m ((c.tc : Thread nD τ).loc main_arg1))) (dsts (m ((c.tc : Thread nD τ).loc main_arg1)))) := by
  refine (d_v44 _).trans ?_
  rw [W4_v30, W4_v5, W4_v6, W4_v29]
theorem W5_v45 (c : Dev nD) : W5 m ρ c (Proc.devRef .tc main_v45) = biasRow (m ((c.tc : Thread nD τ).loc main_arg3)) := by
  refine (d_v45 _).trans ?_
  rw [W4_arg3]
theorem W5_v5 (c : Dev nD) : W5 m ρ c (Proc.devRef .tc main_v5) = srcs (m ((c.tc : Thread nD τ).loc main_arg1)) := (d_v5 _).trans (W4_v5 m ρ c)
theorem W5_v6 (c : Dev nD) : W5 m ρ c (Proc.devRef .tc main_v6) = dsts (m ((c.tc : Thread nD τ).loc main_arg1)) := (d_v6 _).trans (W4_v6 m ρ c)
theorem W5_v29 (c : Dev nD) : W5 m ρ c (Proc.devRef .tc main_v29) = (nrm (srcs (m ((c.tc : Thread nD τ).loc main_arg1))) (dsts (m ((c.tc : Thread nD τ).loc main_arg1)))) := (d_v29 _).trans (W4_v29 m ρ c)
theorem W5_arg4 (c : Dev nD) : W5 m ρ c (Proc.devRef .tc main_arg4) = (m ((c.tc : Thread nD τ).loc main_arg4)) := (d_arg4 _).trans (W4_arg4 m ρ c)
theorem W5_arg5 (c : Dev nD) : W5 m ρ c (Proc.devRef .tc main_arg5) = (m ((c.tc : Thread nD τ).loc main_arg5)) := (d_arg5 _).trans (W4_arg5 m ρ c)

/-! ### The second pallas_call (`W6`) -/

theorem W6_v46 (c : Dev nD) : W6 m ρ c (Proc.devRef .tc main_v46)
    = Region1.prod (aggregate128 (Region0.prod (m ((c.tc : Thread nD τ).loc main_arg0)) (m ((c.tc : Thread nD τ).loc main_arg2))) (srcs (m ((c.tc : Thread nD τ).loc main_arg1))) (dsts (m ((c.tc : Thread nD τ).loc main_arg1))) (nrm (srcs (m ((c.tc : Thread nD τ).loc main_arg1))) (dsts (m ((c.tc : Thread nD τ).loc main_arg1))))) (biasRow (m ((c.tc : Thread nD τ).loc main_arg3))) (m ((c.tc : Thread nD τ).loc main_arg4)) := by
  refine (W6_arr m ρ c 3).trans ?_
  rw [Region1.final (V5 m ρ) c]
  show Region1.prod (W5 m ρ c (Proc.devRef .tc main_v44)) (W5 m ρ c (Proc.devRef .tc main_v45)) (W5 m ρ c (Proc.devRef .tc main_arg4)) = _
  rw [W5_v44, W5_v45, W5_arg4]
theorem W6_v5 (c : Dev nD) : W6 m ρ c (Proc.devRef .tc main_v5) = srcs (m ((c.tc : Thread nD τ).loc main_arg1)) := (W6_of_ne m ρ c main_v5 (by decide)).trans (W5_v5 m ρ c)
theorem W6_v6 (c : Dev nD) : W6 m ρ c (Proc.devRef .tc main_v6) = dsts (m ((c.tc : Thread nD τ).loc main_arg1)) := (W6_of_ne m ρ c main_v6 (by decide)).trans (W5_v6 m ρ c)
theorem W6_v29 (c : Dev nD) : W6 m ρ c (Proc.devRef .tc main_v29) = (nrm (srcs (m ((c.tc : Thread nD τ).loc main_arg1))) (dsts (m ((c.tc : Thread nD τ).loc main_arg1)))) := (W6_of_ne m ρ c main_v29 (by decide)).trans (W5_v29 m ρ c)
theorem W6_arg5 (c : Dev nD) : W6 m ρ c (Proc.devRef .tc main_arg5) = (m ((c.tc : Thread nD τ).loc main_arg5)) := (W6_of_ne m ρ c main_arg5 (by decide)).trans (W5_arg5 m ρ c)

/-! ### The last stretch (`W7`) -/

/-- The result buffer after the run is `result` of the six argument arrays as launched. -/
theorem W7_result (c : Dev nD) : W7 m ρ c (Proc.devRef .tc main_v63)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (e_v63 _).trans ?_
  rw [W6_v46, W6_v5, W6_v6, W6_v29, W6_arg5]
  rfl

end Cert.KernelIdeal.Fold

end
-- ==== Proof.LibHostRead.lean ====
/-
  Host operations of an array program read at an index of literal coordinates, on the extended reals.

  A reference written with array operations spreads a row statistic over the row, views a flat axis as two, cuts one
  plane out of a stack, and sums along the last axis. Each operation, applied at an index built from its coordinates,
  reads its operand at ONE index; the lemmas below name that index.

  * broadcasts: `[a,b] → [a,b,1]`, `[a,b,1] → [a,b,c]`, `[b,c] → [1,b,c]`, `[1,b,c] → [a,b,c]`, `[a] → [a,1]`,
    `[a,1] → [a,c]`, `[c] → [1,c]`, `[1,c] → [a,c]`;
  * reshapes: `[a,n] → [a,b,c]` and `[n] → [b,c]` with `n = b·c` (position `g·c + k` of the flat axis), and
    `[a,1,c] → [a,c]`;
  * a unit-thick slice `[a,b,c] → [a,1,c]` at offset `g` of the middle axis;
  * the sum along the last axis of a rank-3 and of a rank-2 array: the initial value plus `∑ k`;
  * a product of two matrices contracting ONE axis of extent `n`: `∑ k : Fin n` of the operands at index families
    the caller names once.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.HostRead

open Idealize.ShloMosaic Idealize.ShloMosaic.ValueIdx

variable {α : Type}

/-! ## Broadcasts -/

/-- `[a,b] → [a,b,1]`: at `(r, g, u)` the operand at `(r, g)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (g : Fin b) (u : Fin 1) :
    broadcastInDim ⟨3, ![a, b, 1]⟩ ![0, 1] h x (ix3 r g u) = x (ix2 r g) := by
  refine broadcastInDim_apply _ h x (ix3 r g u) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- `[a,b,1] → [a,b,c]`: at `(r, g, k)` the operand at `(r, g, 0)`. -/
theorem bcast_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 r g (0 : Fin 1)) := by
  refine broadcastInDim_apply _ h v (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- `[b,c] → [1,b,c]`: at `(u, g, k)` the operand at `(g, k)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin (⟨3, ![1, b, c]⟩ : Shape).rank))
    (u : Fin 1) (g : Fin b) (k : Fin c) :
    broadcastInDim ⟨3, ![1, b, c]⟩ ![1, 2] h x (ix3 u g k) = x (ix2 g k) := by
  refine broadcastInDim_apply _ h x (ix3 u g k) (ix2 g k) fun ax => ?_
  match ax with
  | ⟨0, _⟩ =>
    show g.val = if b = 1 then 0 else g.val
    split
    · have := g.isLt; omega
    · rfl
  | ⟨1, _⟩ =>
    show k.val = if c = 1 then 0 else k.val
    split
    · have := k.isLt; omega
    · rfl

/-- `[1,b,c] → [a,b,c]`: at `(r, g, k)` the operand at `(0, g, k)`. -/
theorem bcast_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 (0 : Fin 1) g k) := by
  refine broadcastInDim_apply _ h v (ix3 r g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- `[a] → [a,1]`: at `(r, u)` the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- `[a,1] → [a,c]`: at `(r, k)` the operand at `(r, 0)`. -/
theorem bcast_a1_ac_apply {a c : ℕ} (v : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- `[c] → [1,c]`: at `(u, k)` the operand at `k`. -/
theorem bcast_c_1c_apply {c : ℕ} (x : (⟨1, ![c]⟩ : Shape).Idx → α)
    (h : (⟨1, ![c]⟩ : Shape).BroadcastsInDim ⟨2, ![1, c]⟩ (![1] : Fin 1 → Fin (⟨2, ![1, c]⟩ : Shape).rank))
    (u : Fin 1) (k : Fin c) :
    broadcastInDim ⟨2, ![1, c]⟩ ![1] h x (ix2 u k) = x (ix1 k) := by
  refine broadcastInDim_apply _ h x (ix2 u k) (ix1 k) fun ax => ?_
  match ax with
  | ⟨0, _⟩ =>
    show k.val = if c = 1 then 0 else k.val
    split
    · have := k.isLt; omega
    · rfl

/-- `[1,c] → [a,c]`: at `(r, k)` the operand at `(0, k)`. -/
theorem bcast_1c_ac_apply {a c : ℕ} (v : (⟨2, ![1, c]⟩ : Shape).Idx → α)
    (h : (⟨2, ![1, c]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if c = 1 then 0 else k.val
    split
    · have := k.isLt; omega
    · rfl

/-! ## Reshapes -/

/-- `[a,n] → [a,b,c]` with `n = b·c`: at `(r, g, k)` the operand at `(r, q)`, `q = g·c + k`. -/
theorem shapeCast_an_abc_apply {a n b c : ℕ} (hn : n = b * c) (x : (⟨2, ![a, n]⟩ : Shape).Idx → α)
    (h : (⟨2, ![a, n]⟩ : Shape).ShapeCasts ⟨3, ![a, b, c]⟩) (r : Fin a) (g : Fin b) (k : Fin c) (q : Fin n)
    (hq : q.val = g.val * c + k.val) :
    shapeCast ⟨3, ![a, b, c]⟩ x h (ix3 r g k) = x (ix2 r q) :=
  shapeCast_apply x h _ _ (by
    rw [Shape.rowMajor_val_two, Shape.rowMajor_val_three]
    show r.val * n + q.val = (r.val * b + g.val) * c + k.val
    rw [hq, hn, Nat.add_mul, Nat.mul_assoc, Nat.add_assoc])

/-- `[n] → [b,c]`: at `(g, k)` the operand at `q = g·c + k`. -/
theorem shapeCast_n_bc_apply {n b c : ℕ} (x : (⟨1, ![n]⟩ : Shape).Idx → α)
    (h : (⟨1, ![n]⟩ : Shape).ShapeCasts ⟨2, ![b, c]⟩) (g : Fin b) (k : Fin c) (q : Fin n)
    (hq : q.val = g.val * c + k.val) :
    shapeCast ⟨2, ![b, c]⟩ x h (ix2 g k) = x (ix1 q) :=
  shapeCast_apply x h _ _ (by
    rw [Shape.rowMajor_val_one, Shape.rowMajor_val_two]
    exact hq)

/-- `[a,1,c] → [a,c]`: at `(r, k)` the operand at `(r, 0, k)`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

/-! ## A unit-thick slice of the middle axis -/

/-- `[a,b,c] → [a,1,c]` at offset `o` of the middle axis: at `(r, u, k)` the operand at `(r, g, k)`, `g = o`. -/
theorem slice_mid_apply {a b c : ℕ} (o : ℕ) (x : (⟨3, ![a, b, c]⟩ : Shape).Idx → α)
    (h : (⟨3, ![a, b, c]⟩ : Shape).Slices ![0, o, 0] ⟨3, ![a, 1, c]⟩) (r : Fin a) (u : Fin 1) (k : Fin c) (g : Fin b)
    (hg : g.val = o) :
    extractStridedSlice ⟨3, ![a, 1, c]⟩ ![0, o, 0] x h (ix3 r u k) = x (ix3 r g k) := by
  refine extractStridedSlice_apply _ x h (ix3 r u k) (ix3 r g k) fun ax => ?_
  match ax with
  | ⟨0, _⟩ => show r.val = 0 + r.val; omega
  | ⟨1, _⟩ => show g.val = o + u.val; omega
  | ⟨2, _⟩ => show k.val = 0 + k.val; omega

/-! ## Sums along the last axis -/

/-- Over `(r, g)`, the rank-3 index whose last coordinate is `k` is `(r, g, k)`. -/
theorem lift_last3 {a b c : ℕ} (h : (⟨3, ![a, b, c]⟩ : Shape).Reduces [(2 : Fin 3)] ⟨2, ![a, b]⟩) (r : Fin a) (g : Fin b)
    (k : Fin c) : h.lift (ix2 r g) k = ix3 r g k := by
  funext d
  refine Fin.ext ?_
  match d with
  | ⟨0, _⟩ => rfl
  | ⟨1, _⟩ => rfl
  | ⟨2, _⟩ => rfl

/-- Over `r`, the rank-2 index whose last coordinate is `k` is `(r, k)`. -/
theorem lift_last2 {a c : ℕ} (h : (⟨2, ![a, c]⟩ : Shape).Reduces [(1 : Fin 2)] ⟨1, ![a]⟩) (r : Fin a) (k : Fin c) :
    h.lift (ix1 r) k = ix2 r k := by
  funext d
  refine Fin.ext ?_
  match d with
  | ⟨0, _⟩ => rfl
  | ⟨1, _⟩ => rfl

/-- The host sum of a rank-3 array along its last axis, at `(r, g)`: the initial value plus `∑ k, x (r, g, k)`. -/
theorem reduceAdd_last3_apply {a b c : ℕ} {φ : FTy} {u : Shape} (x : FVec Ideal ⟨3, ![a, b, c]⟩ φ) (init : u.Idx → Ideal φ)
    (h' : (⟨3, ![a, b, c]⟩ : Shape).ReducesTo [(2 : Fin 3)] ⟨2, ![a, b]⟩) (hu : 0 < u.numel)
    (h : (⟨3, ![a, b, c]⟩ : Shape).Reduces [(2 : Fin 3)] ⟨2, ![a, b]⟩) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  exact congrArg (_ + ·) (Finset.sum_congr rfl fun k _ => congrArg x (lift_last3 h r g k))

/-- The host sum of a rank-2 array along its last axis, at `r`: the initial value plus `∑ k, x (r, k)`. -/
theorem reduceAdd_last2_apply {a c : ℕ} {φ : FTy} {u : Shape} (x : FVec Ideal ⟨2, ![a, c]⟩ φ) (init : u.Idx → Ideal φ)
    (h' : (⟨2, ![a, c]⟩ : Shape).ReducesTo [(1 : Fin 2)] ⟨1, ![a]⟩) (hu : 0 < u.numel)
    (h : (⟨2, ![a, c]⟩ : Shape).Reduces [(1 : Fin 2)] ⟨1, ![a]⟩) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  exact congrArg (_ + ·) (Finset.sum_congr rfl fun k _ => congrArg x (lift_last2 h r k))

/-! ## A product contracting one axis -/

/-- A host matrix product whose dimension numbers contract ONE axis of extent `n`, at an output index `j`:
    `∑ k : Fin n, lhs (L k) * rhs (R k)`, where `L k`, `R k` are the operand indices the dimension numbers assign to
    `j` and the contraction coordinate `k`. -/
theorem dotGeneral_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    Host.dotGeneral D prec lhs rhs j = ∑ k : Fin n, lhs (L k) * rhs (R k) := by
  simp only [Host.dotGeneral]
  rw [Ideal.dotGeneral_apply, ← Equiv.sum_comp (contrEquiv1 D n hr hs).symm]
  exact Finset.sum_congr rfl fun k _ => by rw [hl k, hr' k]

end Cert.HostRead

end
-- ==== Proof.Bridge.lean ====
/-
  The reference's result is the kernel's function of the six arrays.

  The reference computes, on the host and over whole arrays: `h = X · W1`; the edge list with self loops appended, the
  degrees, their inverse square roots and the per-edge normalisation `n`; `a = aggregate (h, n)`;
  `max (a + b1) 0`; `h' = that · W2`; the same normalisation over again, from the same edge list;
  `aggregate (h', n) + b2`. The kernel's program applies the same host operations in the same order, with its two
  pallas_calls in place of the two products. So the two results are one term once
  * the first pallas_call's array is the product `X · W1` as the host's `dot_general` states it — it is, by
    definition of `Region0.prod` —, and
  * the second's, `Region1.prod a (b1 as a row) W2`, is `dot_general (max (a + broadcast b1) 0) W2`: the
    activations agree index by index, the kernel's bias row `reshape b1` and the host's two broadcasts of `b1` both
    reading `b1 k` at column `k`, and the host's broadcast zero being the number zero.
  Nothing is rearranged, so no entry is asked to be finite.
-/
import proofs.«172625_j13048110645409_2_alg».proof.Proof.KernelFold
import proofs.«172625_j13048110645409_2_alg».proof.Proof.RefRun
import proofs.«172625_j13048110645409_2_alg».proof.Proof.LibHostRead

set_option maxRecDepth 16384

noncomputable section

namespace Cert.Proof.Bridge

open Idealize.ShloMosaic Idealize.ShloMosaic.TcCoe Idealize.SL.Sem Idealize.ShloMosaic.ValueIdx
open Cert.KernelIdeal.Fold

/-- The hidden layer's activations in the two spellings: the kernel's, over the bias reshaped to a 1 × 128 row, and
    the host's, over the bias broadcast to a row and then to every row, and a broadcast zero. -/
theorem act_eq (A : FVec Ideal ⟨2, ![100000, 128]⟩ .f32) (b : FVec Ideal ⟨1, ![128]⟩ .f32)
    (hc : (⟨1, ![128]⟩ : Shape).ShapeCasts ⟨2, ![1, 128]⟩)
    (h1 : (⟨1, ![128]⟩ : Shape).BroadcastsInDim ⟨2, ![1, 128]⟩ (![1] : Fin 1 → Fin (⟨2, ![1, 128]⟩ : Shape).rank))
    (h2 : (⟨2, ![1, 128]⟩ : Shape).BroadcastsInDim ⟨2, ![100000, 128]⟩ (![0, 1] : Fin 2 → Fin (⟨2, ![100000, 128]⟩ : Shape).rank))
    (h0 : (⟨0, ![]⟩ : Shape).BroadcastsInDim ⟨2, ![100000, 128]⟩ ![]) :
    Cert.KernelIdeal.Region1.act A (shapeCast ⟨2, ![1, 128]⟩ b hc)
      = maximumf (addf A (broadcastInDim ⟨2, ![100000, 128]⟩ ![0, 1] h2 (broadcastInDim ⟨2, ![1, 128]⟩ ![1] h1 b)))
          (broadcastInDim ⟨2, ![100000, 128]⟩ ![] h0 (constant (F := Ideal) ⟨0, ![]⟩ .f32 0x00000000#32)) := by
  funext j
  obtain ⟨r, k, rfl⟩ : ∃ (r : Fin 100000) (k : Fin 128), j = ix2 r k := ⟨j 0, j 1, eq_ix2 j⟩
  unfold Cert.KernelIdeal.Region1.act
  rw [maximumf_apply, addf_apply]
  refine congrArg₂ max (congrArg (A (ix2 r k) + ·) ?_) ?_
  · refine (Cert.HostRead.shapeCast_n_bc_apply b hc (0 : Fin 1) k k (by simp)).trans ?_
    exact ((Cert.HostRead.bcast_1c_ac_apply _ h2 r k).trans (Cert.HostRead.bcast_c_1c_apply b h1 0 k)).symm
  · rw [broadcastInDim_apply ![] h0 _ (ix2 r k) ix0 (fun a => a.elim0), constant_apply, Ideal.ofBits_zero_f32]

/-- The reference's result term is `result` of its own argument arrays: the same host operations in the same order,
    the two products being the two pallas_calls' arrays. -/
theorem ref_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v90 (F := Ideal) m' c
      = result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  unfold result Cert.KernelIdeal.Region1.prod biasRow
  rw [act_eq _ _ _ Cert.ReferenceIdeal.Gen.bcast_S128_S1x128_1 Cert.ReferenceIdeal.Gen.bcast_S1x128_S100000x128_0_1
    Cert.ReferenceIdeal.Gen.bcast_S_S100000x128]
  unfold Cert.ReferenceIdeal.ValueP.res_main_v90
  rfl

end Cert.Proof.Bridge

end
-- ==== Proof.lean ====
/-
  The proof of `Cert.Claim` for a two-layer graph convolution network: the kernel's two pallas_calls are the two
  dense products (`X · W1`, and `max (a + b1) 0 · W2`), each computed ten row blocks at a time, and everything else —
  the self loops, the degrees, the symmetric normalisation, gathering, scaling and scatter-adding the rows, the last
  bias — is the same host operations as the reference's, in the same order.

  * The three frames: the two kernel programs' are the generated frame certificates; the reference has no kernel, and
    its frame is its run with the result dropped.
  * `preserves`: the idealization rewrote nothing, so the claim is `True`.
  * `algebraic`: the kernel's run ends with its result buffer at `Fold.result` of the six argument arrays
    (KernelRun.lean: the run with the result named; KernelFold.lean: the result read back through the segments;
    Region0.lean and Region1.lean: a pallas_call's row blocks tile the whole product), and the reference's run ends at
    the same function of its own arguments (Bridge.lean), which agree with the kernel's. A row block of a matrix
    product is the product of the row block, and a change of float format is the identity on the extended reals; no
    sum is rearranged, so the precondition (finite inputs) is never opened.
-/
import proofs.«172625_j13048110645409_2_alg».proof.Defs
import proofs.«172625_j13048110645409_2_alg».proof.Proof.Gen.Kernel
import proofs.«172625_j13048110645409_2_alg».proof.Proof.Gen.Kernel.Skeleton
import proofs.«172625_j13048110645409_2_alg».proof.Proof.Gen.Kernel.Launch
import proofs.«172625_j13048110645409_2_alg».proof.Proof.Gen.Kernel.Points
import proofs.«172625_j13048110645409_2_alg».proof.Proof.Gen.Kernel.Frame
import proofs.«172625_j13048110645409_2_alg».proof.Proof.Gen.KernelIdeal
import proofs.«172625_j13048110645409_2_alg».proof.Proof.Gen.KernelIdeal.Skeleton
import proofs.«172625_j13048110645409_2_alg».proof.Proof.Gen.KernelIdeal.Launch
import proofs.«172625_j13048110645409_2_alg».proof.Proof.Gen.KernelIdeal.Points
import proofs.«172625_j13048110645409_2_alg».proof.Proof.Gen.KernelIdeal.Frame
import proofs.«172625_j13048110645409_2_alg».proof.Proof.Gen.ReferenceIdeal
import proofs.«172625_j13048110645409_2_alg».proof.Proof.Gen.Pre_finite_inputs
import proofs.«172625_j13048110645409_2_alg».proof.Proof.KernelRun
import proofs.«172625_j13048110645409_2_alg».proof.Proof.KernelFold
import proofs.«172625_j13048110645409_2_alg».proof.Proof.RefRun
import proofs.«172625_j13048110645409_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end at `Fold.result` of the argument arrays, on which the two memories agree. -/
theorem algebraic : Cert.algebraic_KernelIdeal_ReferenceIdeal := by
  intro m ρ m' ρ' _ hagree
  refine ⟨fun c => Cert.KernelIdeal.Fold.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.W7_result m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.Proof.Bridge.ref_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
